-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1x64 : Shape := ⟨4, ![8, 2048, 1, 64]⟩
abbrev S8x1x2048x64 : Shape := ⟨4, ![8, 1, 2048, 64]⟩
abbrev S8x2048x64 : Shape := ⟨3, ![8, 2048, 64]⟩
abbrev S_ : Shape := ⟨0, ![]⟩

class Facts : Prop where
  bcast_S_S8x2048x1x64 : S_.BroadcastsInDim S8x2048x1x64 (![] : Fin 0 → Fin S8x2048x1x64.rank)
  reducesTo_S8x2048x1x64_S_d0_1_2_3 : S8x2048x1x64.ReducesTo [0, 1, 2, 3] S_
  h_S_ : 0 < S_.numel
  bcast_S_S8x1x2048x64 : S_.BroadcastsInDim S8x1x2048x64 (![] : Fin 0 → Fin S8x1x2048x64.rank)
  reducesTo_S8x1x2048x64_S_d0_1_2_3 : S8x1x2048x64.ReducesTo [0, 1, 2, 3] S_
  bcast_S_S8x2048x64 : S_.BroadcastsInDim S8x2048x64 (![] : Fin 0 → Fin S8x2048x64.rank)
  reducesTo_S8x2048x64_S_d0_1_2 : S8x2048x64.ReducesTo [0, 1, 2] S_

variable [Facts]

def fn {F : FTy → Type} [FloatOps F] (main_arg0 : FVec F S8x2048x1x64 .f32) (main_arg1 : FVec F S8x1x2048x64 .f32) (main_arg2 : FVec F S8x2048x64 .f32) : IVec S_ 1 :=
  let main_v0 : FVec F S8x2048x1x64 .f32 := Host.absf main_arg0
  let main_cst : FVec F S_ .f32 := constant S_ .f32 0x7F800000#32
  let main_v1 : FVec F S8x2048x1x64 .f32 := broadcastInDim S8x2048x1x64 ![] bcast_S_S8x2048x1x64 main_cst
  let main_v2 : IVec S8x2048x1x64 1 := cmpf .olt main_v0 main_v1
  let main_c : IVec S_ 1 := constantI S_ 1 1#1
  let main_v3 : IVec S_ 1 := (fun x v => Host.reduce IntOp.andi x v reducesTo_S8x2048x1x64_S_d0_1_2_3 h_S_) main_v2 main_c
  let main_v4 : FVec F S8x1x2048x64 .f32 := Host.absf main_arg1
  let main_cst_0 : FVec F S_ .f32 := constant S_ .f32 0x7F800000#32
  let main_v5 : FVec F S8x1x2048x64 .f32 := broadcastInDim S8x1x2048x64 ![] bcast_S_S8x1x2048x64 main_cst_0
  let main_v6 : IVec S8x1x2048x64 1 := cmpf .olt main_v4 main_v5
  let main_c_1 : IVec S_ 1 := constantI S_ 1 1#1
  let main_v7 : IVec S_ 1 := (fun x v => Host.reduce IntOp.andi x v reducesTo_S8x1x2048x64_S_d0_1_2_3 h_S_) main_v6 main_c_1
  let main_v8 : IVec S_ 1 := andi main_v3 main_v7
  let main_v9 : FVec F S8x2048x64 .f32 := Host.absf main_arg2
  let main_cst_2 : FVec F S_ .f32 := constant S_ .f32 0x7F800000#32
  let main_v10 : FVec F S8x2048x64 .f32 := broadcastInDim S8x2048x64 ![] bcast_S_S8x2048x64 main_cst_2
  let main_v11 : IVec S8x2048x64 1 := cmpf .olt main_v9 main_v10
  let main_c_3 : IVec S_ 1 := constantI S_ 1 1#1
  let main_v12 : IVec S_ 1 := (fun x v => Host.reduce IntOp.andi x v reducesTo_S8x2048x64_S_d0_1_2 h_S_) main_v11 main_c_3
  let main_v13 : IVec S_ 1 := andi main_v8 main_v12
  main_v13
-- ==== Kernel.lean ====
abbrev S8x2048x1x64 : Shape := ⟨4, ![8, 2048, 1, 64]⟩
abbrev S8x1x2048x64 : Shape := ⟨4, ![8, 1, 2048, 64]⟩
abbrev S8x2048x64 : Shape := ⟨3, ![8, 2048, 64]⟩
abbrev S8x64x2048 : Shape := ⟨3, ![8, 64, 2048]⟩
abbrev S8x2048x2048 : Shape := ⟨3, ![8, 2048, 2048]⟩
abbrev S1x2048x64 : Shape := ⟨3, ![1, 2048, 64]⟩
abbrev S1x256x64 : Shape := ⟨3, ![1, 256, 64]⟩
abbrev S1x64x2048 : Shape := ⟨3, ![1, 64, 2048]⟩
abbrev S1x2048x256 : Shape := ⟨3, ![1, 2048, 256]⟩
abbrev S1x64x256 : Shape := ⟨3, ![1, 64, 256]⟩
abbrev S2048x64 : Shape := ⟨2, ![2048, 64]⟩
abbrev S256x64 : Shape := ⟨2, ![256, 64]⟩
abbrev S64x2048 : Shape := ⟨2, ![64, 2048]⟩
abbrev S2048x256 : Shape := ⟨2, ![2048, 256]⟩
abbrev S256 : Shape := ⟨1, ![256]⟩
abbrev S1x256 : Shape := ⟨2, ![1, 256]⟩
abbrev S64x256 : Shape := ⟨2, ![64, 256]⟩

abbrev nBuf : Space → Nat
  | .hbm => 8
  | .vmem => 10
  | .smem => 0
  | _ => 0

abbrev bufTy : (tb : Table) → Fin (tcTables nBuf tb) → BufTy
  | .hbm, ⟨0, _⟩ => ⟨S8x2048x1x64, .f32⟩
  | .hbm, ⟨1, _⟩ => ⟨S8x1x2048x64, .f32⟩
  | .hbm, ⟨2, _⟩ => ⟨S8x2048x64, .f32⟩
  | .hbm, ⟨3, _⟩ => ⟨S8x2048x64, .f32⟩
  | .hbm, ⟨4, _⟩ => ⟨S8x2048x64, .f32⟩
  | .hbm, ⟨5, _⟩ => ⟨S8x64x2048, .f32⟩
  | .hbm, ⟨6, _⟩ => ⟨S8x2048x2048, .f32⟩
  | .hbm, ⟨7, _⟩ => ⟨S8x64x2048, .f32⟩
  | .local _ .vmem, ⟨0, _⟩ => ⟨S1x2048x64, .f32⟩
  | .local _ .vmem, ⟨1, _⟩ => ⟨S1x2048x64, .f32⟩
  | .local _ .vmem, ⟨2, _⟩ => ⟨S1x256x64, .f32⟩
  | .local _ .vmem, ⟨3, _⟩ => ⟨S1x256x64, .f32⟩
  | .local _ .vmem, ⟨4, _⟩ => ⟨S1x64x2048, .f32⟩
  | .local _ .vmem, ⟨5, _⟩ => ⟨S1x64x2048, .f32⟩
  | .local _ .vmem, ⟨6, _⟩ => ⟨S1x2048x256, .f32⟩
  | .local _ .vmem, ⟨7, _⟩ => ⟨S1x2048x256, .f32⟩
  | .local _ .vmem, ⟨8, _⟩ => ⟨S1x64x256, .f32⟩
  | .local _ .vmem, ⟨9, _⟩ => ⟨S1x64x256, .f32⟩
  | _, _ => ⟨S8x2048x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8x2048x1x64_S8x2048x64 : S8x2048x1x64.ShapeCasts S8x2048x64
  shapeCasts_S8x1x2048x64_S8x2048x64 : S8x1x2048x64.ShapeCasts S8x2048x64
  transposes_S8x2048x64_S8x64x2048_0_2_1 : S8x2048x64.Transposes [0, 2, 1] S8x64x2048
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  bitsLt_bf16_f32 : FTy.bits .bf16 < FTy.bits .f32
  reduces_S2048x256_S256 : S2048x256.Reduces [0] S256
  shapeCasts_S256_S1x256 : S256.ShapeCasts S1x256
  broadcasts_S1x256_S2048x256 : S1x256.Broadcasts S2048x256
  shapeCasts_S2048x256_S1x2048x256 : S2048x256.ShapeCasts S1x2048x256
  inb_S1x2048x256_S1x2048x256_0_0_0 : ∀ a, (![0, 0, 0] : Fin 3 → Nat) a + S1x2048x256.size a ≤ S1x2048x256.size a
  h_S1x2048x256 : 0 < S1x2048x256.numel
  reduces_S64x256_S256 : S64x256.Reduces [0] S256
  broadcasts_S1x256_S64x256 : S1x256.Broadcasts S64x256
  shapeCasts_S64x256_S1x64x256 : S64x256.ShapeCasts S1x64x256
  inb_S1x64x256_S1x64x256_0_0_0 : ∀ a, (![0, 0, 0] : Fin 3 → Nat) a + S1x64x256.size a ≤ S1x64x256.size a
  h_S1x64x256 : 0 < S1x64x256.numel
  dot_S2048x64_S256x64_S2048x256_1_1_0_0_n_n_wf : DotDims.WF S2048x64 S256x64 S2048x256 [1] [1] [0] [0] [] []
  dot_S64x2048_S2048x256_S64x256_1_0_0_1_n_n_wf : DotDims.WF S64x2048 S2048x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S8x2048x64.size a
  hwx0_0 : ∀ i : grid0.Coords, EltTy.bits .f32 = 32 ∨ (Rect.block (s := S8x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64.size a ≤ S8x2048x64.size a
  hwx0_1 : ∀ i : grid0.Coords, EltTy.bits .f32 = 32 ∨ (Rect.block (s := S8x2048x64) S1x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x2048.size a ≤ S8x64x2048.size a
  hwx0_2 : ∀ i : grid0.Coords, EltTy.bits .f32 = 32 ∨ (Rect.block (s := S8x64x2048) S1x64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S8x2048x2048.size a
  hwx0_3 : ∀ i : grid0.Coords, EltTy.bits .f32 = 32 ∨ (Rect.block (s := S8x2048x2048) S1x2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x256.size a ≤ S8x64x2048.size a
  hwx0_4 : ∀ i : grid0.Coords, EltTy.bits .f32 = 32 ∨ (Rect.block (s := S8x64x2048) S1x64x256.size (cc0_transform_4 i) (hinb0_4 i)).WholeWords (EltTy.packing .f32)

variable [Facts₀]

def dot_S2048x64_S256x64_S2048x256_1_1_0_0_n_n : DotDims S2048x64 S256x64 S2048x256 where
  lhsContracting := [1]
  rhsContracting := [1]
  lhsNonContracting := [0]
  rhsNonContracting := [0]
  lhsBatch := []
  rhsBatch := []
  wf := dot_S2048x64_S256x64_S2048x256_1_1_0_0_n_n_wf
def dot_S64x2048_S2048x256_S64x256_1_0_0_1_n_n : DotDims S64x2048 S2048x256 S64x256 where
  lhsContracting := [1]
  rhsContracting := [0]
  lhsNonContracting := [0]
  rhsNonContracting := [1]
  lhsBatch := []
  rhsBatch := []
  wf := dot_S64x2048_S2048x256_S64x256_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x2048x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1x64 : Shape := ⟨4, ![8, 2048, 1, 64]⟩
abbrev S8x1x2048x64 : Shape := ⟨4, ![8, 1, 2048, 64]⟩
abbrev S8x2048x64 : Shape := ⟨3, ![8, 2048, 64]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩
abbrev S8x2048x1 : Shape := ⟨3, ![8, 2048, 1]⟩
abbrev S8x64x2048 : Shape := ⟨3, ![8, 64, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x1x64, .f32⟩
  | .hbm, ⟨1, _⟩ => ⟨S8x1x2048x64, .f32⟩
  | .hbm, ⟨2, _⟩ => ⟨S8x2048x64, .f32⟩
  | .hbm, ⟨3, _⟩ => ⟨S8x2048x64, .f32⟩
  | .hbm, ⟨4, _⟩ => ⟨S8x2048x64, .f32⟩
  | .hbm, ⟨5, _⟩ => ⟨S8x2048x2048, .f32⟩
  | .hbm, ⟨6, _⟩ => ⟨S_, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048, .f32⟩
  | .hbm, ⟨12, _⟩ => ⟨S_, .f32⟩
  | .hbm, ⟨13, _⟩ => ⟨S8x2048, .f32⟩
  | .hbm, ⟨14, _⟩ => ⟨S8x2048, .f32⟩
  | .hbm, ⟨15, _⟩ => ⟨S8x1x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048, .f32⟩
  | .hbm, ⟨21, _⟩ => ⟨S8x1x2048, .f32⟩
  | .hbm, ⟨22, _⟩ => ⟨S8x2048x2048, .f32⟩
  | .hbm, ⟨23, _⟩ => ⟨S8x2048x2048, .f32⟩
  | .hbm, ⟨24, _⟩ => ⟨S8x2048x64, .f32⟩
  | .hbm, ⟨25, _⟩ => ⟨S8x2048x64, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S8x2048x64, .f32⟩
  | .hbm, ⟨34, _⟩ => ⟨S8x2048x64, .f32⟩
  | .hbm, ⟨35, _⟩ => ⟨S8x64x2048, .f32⟩
  | _, _ => ⟨S8x2048x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_cst : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  shapeCasts_S8x2048x1x64_S8x2048x64 : S8x2048x1x64.ShapeCasts S8x2048x64
  shapeCasts_S8x1x2048x64_S8x2048x64 : S8x1x2048x64.ShapeCasts S8x2048x64
  bcast_S_S8x2048x2048 : S_.BroadcastsInDim S8x2048x2048 (![] : Fin 0 → Fin S8x2048x2048.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  reducesTo_S8x2048x64_S8x2048_d2 : S8x2048x64.ReducesTo [2] S8x2048
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x64_0_1_2 : S8x2048x1.BroadcastsInDim S8x2048x64 (![0, 1, 2] : Fin 3 → Fin S8x2048x64.rank)
  transposes_S8x2048x64_S8x64x2048_0_2_1 : S8x2048x64.Transposes [0, 2, 1] S8x64x2048
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_1_1_2_2_0_0_wf : DotDims.WF S8x2048x2048 S8x2048x64 S8x2048x64 [1] [1] [2] [2] [0] [0]

variable [Facts₀]

def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_1_1_2_2_0_0 : DotDims S8x2048x2048 S8x2048x64 S8x2048x64 where
  lhsContracting := [1]
  rhsContracting := [1]
  lhsNonContracting := [2]
  rhsNonContracting := [2]
  lhsBatch := [0]
  rhsBatch := [0]
  wf := dot_S8x2048x2048_S8x2048x64_S8x2048x64_1_1_2_2_0_0_wf

class Facts : Prop extends Facts₀ where

variable [Facts]
-- ==== Proof.Attention.lean ====
/-
  Softmax attention with unit-length outputs, on the extended reals: what both programs compute.

  For one query and a finite family of keys, the scaled score of key i is the inner product of key i with the query times
  the scale 0.125; the weight of key i is exp (score i − the largest score) divided by the sum of those exponentials over
  the family (the softmax over the keys).  For a family of value vectors, the blend is the weighted sum of the value
  vectors, and the direction is the blend divided by (its Euclidean length + a small guard).  The two result arrays are
  these, per batch b: the weights at (b, key i, query o), and the direction of query o's blend at (b, feature v, query o).
  The three literals are kept as their single-precision words; both programs spell the same words.
-/
import Idealize.ShloMosaic.PureOps.Ideal
import Idealize.ShloMosaic.Lib.ValueIdx

noncomputable section

open scoped BigOperators

namespace Cert.Attention

open Idealize.ShloMosaic Idealize.ShloMosaic.ValueIdx

/-- The score scale 0.125 = 1/sqrt 64, as its word. -/
abbrev scale : EReal := Ideal.ofBits .f32 0x3E000000#32
/-- The start of the running maximum, the word of −∞. -/
abbrev floor : EReal := Ideal.ofBits .f32 0xFF800000#32
/-- The guard added to a length before dividing by it, the word of 1e-12. -/
abbrev guard : EReal := Ideal.ofBits .f32 0x2B8CBCCC#32

section Weights
variable {ι κ : Type} [Fintype ι] [Fintype κ]

/-- The scaled score of key i against the query. -/
def score (key : ι → κ → EReal) (qry : κ → EReal) (i : ι) : EReal := (∑ k, key i k * qry k) * scale

/-- The largest score over the family of keys. -/
def peak (key : ι → κ → EReal) (qry : κ → EReal) : EReal := (Finset.univ : Finset ι).fold max floor (score key qry)

/-- The exponential of a score's distance below the largest. -/
def raised (key : ι → κ → EReal) (qry : κ → EReal) (i : ι) : EReal := Ideal.exp (score key qry i - peak key qry)

/-- The softmax weight of key i: its raised score over the sum of them all. -/
def weight (key : ι → κ → EReal) (qry : κ → EReal) (i : ι) : EReal :=
  Ideal.div (raised key qry i) (∑ i', raised key qry i')

end Weights

section Blend
variable {ι ν : Type} [Fintype ι] [Fintype ν]

/-- Coordinate v of the weighted sum of the value vectors. -/
def blend (val : ι → ν → EReal) (w : ι → EReal) (v : ν) : EReal := ∑ i, val i v * w i

/-- Coordinate v of the blend scaled to (nearly) unit length: divided by its Euclidean length plus the guard. -/
def direction (val : ι → ν → EReal) (w : ι → EReal) (v : ν) : EReal :=
  Ideal.div (blend val w v) (Ideal.sqrt (∑ v', blend val w v' * blend val w v') + guard)

end Blend

/-- The keys [8, 2048, 1, 64], the queries [8, 1, 2048, 64], the values [8, 2048, 64]; the weights [8, 2048, 2048] and the
    outputs [8, 64, 2048]. -/
abbrev SKeys : Shape := ⟨4, ![8, 2048, 1, 64]⟩
abbrev SQueries : Shape := ⟨4, ![8, 1, 2048, 64]⟩
abbrev SValues : Shape := ⟨3, ![8, 2048, 64]⟩
abbrev SWeights : Shape := ⟨3, ![8, 2048, 2048]⟩
abbrev SOutputs : Shape := ⟨3, ![8, 64, 2048]⟩

/-- Batch b's keys as a family of 2048 vectors of 64 features. -/
def keysOf (K : SKeys.Idx → EReal) (b : Fin 8) : Fin 2048 → Fin 64 → EReal := fun i k => K (ix4 b i (0 : Fin 1) k)

/-- Batch b's query o as a vector of 64 features. -/
def queryOf (Q : SQueries.Idx → EReal) (b : Fin 8) (o : Fin 2048) : Fin 64 → EReal := fun k => Q (ix4 b (0 : Fin 1) o k)

/-- Batch b's values as a family of 2048 vectors of 64 features. -/
def valuesOf (V : SValues.Idx → EReal) (b : Fin 8) : Fin 2048 → Fin 64 → EReal := fun i v => V (ix3 b i v)

/-- The weights array: at (b, i, o) the softmax weight of batch b's key i for batch b's query o. -/
def weights (K : SKeys.Idx → EReal) (Q : SQueries.Idx → EReal) : SWeights.Idx → EReal := fun j =>
  weight (keysOf K (j 0)) (queryOf Q (j 0) (j 2)) (j 1)

/-- The outputs array: at (b, v, o) coordinate v of the direction of query o's blend of batch b's values. -/
def outputs (K : SKeys.Idx → EReal) (Q : SQueries.Idx → EReal) (V : SValues.Idx → EReal) : SOutputs.Idx → EReal := fun j =>
  direction (valuesOf V (j 0)) (fun i : Fin 2048 => weights K Q (ix3 (j 0) i (j 2))) (j 1)

theorem weights_at (K : SKeys.Idx → EReal) (Q : SQueries.Idx → EReal) (b : Fin 8) (i o : Fin 2048) :
    weights K Q (ix3 b i o) = weight (keysOf K b) (queryOf Q b o) i := rfl

theorem outputs_at (K : SKeys.Idx → EReal) (Q : SQueries.Idx → EReal) (V : SValues.Idx → EReal) (b : Fin 8) (v : Fin 64) (o : Fin 2048) :
    outputs K Q V (ix3 b v o) = direction (valuesOf V b) (fun i : Fin 2048 => weights K Q (ix3 b i o)) v := rfl

end Cert.Attention

end
-- ==== Proof.LibColumnMax.lean ====
/-
  Maximum reductions read at one entry, on the extended reals.

  Down the columns of a matrix: an [n, d] matrix maximum-reduced over its first axis into a [d] vector has, at column e,
  the fold of `max`, from the accumulator's value, over the entries (0, e), …, (n-1, e) — the kernel's vector reduction.
  Over the middle axis of a rank-3 array: an [n0, n1, n2] array maximum-reduced over its second axis into an [n0, n2]
  matrix has, at (b, o), the fold of `max`, from the start value, over the entries (b, 0, o), …, (b, n1-1, o) — the
  host's one-operand reduce.  A fold of `max` from a start value is never below that start value, so taking the
  maximum with the start value once more changes nothing.  General in the extents and the float format.
-/
import Idealize.ShloMosaic.PureOps.Ideal.Laws
import Idealize.ShloMosaic.Lib.ValueIdx

noncomputable section
namespace Cert.LibColumnMax
open Idealize.ShloMosaic Idealize.ShloMosaic.ValueIdx

variable {φ : FTy}

/-- Column e with the coordinate y put back on the reduced axis is the entry (y, e). -/
theorem lift_col {n d : ℕ} (h : (⟨2, ![n, d]⟩ : Shape).Reduces [0] ⟨1, ![d]⟩) (e : Fin d) (y : Fin n) :
    h.lift (ix1 e) y = ix2 y e :=
  funext fun a => Fin.ext (by
    match a with
    | ⟨0, _⟩ => rfl
    | ⟨1, _⟩ => rfl)

/-- A vector maximum-reduction down the columns: the fold of `max` over the column from the accumulator's value. -/
theorem multiReduction_max_col {n d : ℕ} (src : FVec Ideal ⟨2, ![n, d]⟩ φ) (acc : BitVec φ.bits)
    (h : (⟨2, ![n, d]⟩ : Shape).Reduces [0] ⟨1, ![d]⟩) (hφ : FKind.Formats φ) (hacc : acc = FKind.maximumf.neutral φ hφ) (e : Fin d) :
    multiReduction .maximumf [0] ⟨1, ![d]⟩ src acc h hφ hacc (ix1 e)
      = (Finset.univ : Finset (Fin n)).fold max (Ideal.ofBits φ acc) (fun y => src (ix2 y e)) :=
  (Ideal.multiReduction_maximumf_single src acc h hφ hacc (ix1 e)).trans
    (congrArg (Finset.fold max (Ideal.ofBits φ acc) · Finset.univ) (funext fun y => congrArg src (lift_col h e y)))

/-- Entry (b, o) of the result with the coordinate i put back on the reduced middle axis is the entry (b, i, o). -/
theorem lift_middle {n0 n1 n2 : ℕ} (h : (⟨3, ![n0, n1, n2]⟩ : Shape).Reduces [1] ⟨2, ![n0, n2]⟩)
    (b : Fin n0) (o : Fin n2) (i : Fin n1) : h.lift (ix2 b o) i = ix3 b i o :=
  funext fun a => Fin.ext (by
    match a with
    | ⟨0, _⟩ => rfl
    | ⟨1, _⟩ => rfl
    | ⟨2, _⟩ => rfl)

/-- The host's maximum-reduce over the middle axis: the fold of `max` over that axis from the start value. -/
theorem hostReduce_max_middle {n0 n1 n2 : ℕ} {u : Shape} (x : FVec Ideal ⟨3, ![n0, n1, n2]⟩ φ) (init : u.Idx → Ideal φ)
    (h' : (⟨3, ![n0, n1, n2]⟩ : Shape).ReducesTo [1] ⟨2, ![n0, n2]⟩)
    (h : (⟨3, ![n0, n1, n2]⟩ : Shape).Reduces [1] ⟨2, ![n0, n2]⟩) (hu : 0 < u.numel) (b : Fin n0) (o : Fin n2) :
    Host.reduce (FloatOps.maximumf (F := Ideal) (φ := φ)) x init h' hu (ix2 b o)
      = (Finset.univ : Finset (Fin n1)).fold max (init (Shape.Idx.first hu)) (fun i => x (ix3 b i o)) :=
  (Host.reduce_eq_fold_single (FloatOps.maximumf (F := Ideal) (φ := φ)) x init h' h hu (ix2 b o)).trans
    (congrArg (Finset.fold max (init (Shape.Idx.first hu)) · Finset.univ) (funext fun i => congrArg x (lift_middle h b o i)))

/-- A fold of `max` from a start value is at least that value, so its maximum with the start value is itself. -/
theorem max_start_fold {ι : Type} (s : Finset ι) (start : EReal) (f : ι → EReal) :
    max start (s.fold max start f) = s.fold max start f :=
  max_eq_right ((Finset.le_fold_max start).mpr (Or.inl le_rfl))

end Cert.LibColumnMax
end
-- ==== Proof.LibColReduce.lean ====
/-
  A reduction down the columns of a matrix, read at one column.

  For an [n, d] matrix add-reduced over its first axis into a [d] vector, the entry at column e is the sum of
  the entries (0, e), …, (n-1, e). Stated for the kernel's vector reduction at the extended reals, for any
  extents and float format.
-/
import Idealize.ShloMosaic.PureOps.Ideal.Laws
import Idealize.ShloMosaic.Lib.ValueIdx

noncomputable section
namespace Cert.LibColReduce
open Idealize.ShloMosaic Idealize.ShloMosaic.ValueIdx

variable {φ : FTy}

/-- Column e with the coordinate y put back on the reduced axis is the entry (y, e). -/
theorem lift_col {n d : ℕ} (h : (⟨2, ![n, d]⟩ : Shape).Reduces [0] ⟨1, ![d]⟩) (e : Fin d) (y : Fin n) :
    h.lift (ix1 e) y = ix2 y e :=
  funext fun a => Fin.ext (by
    match a with
    | ⟨0, _⟩ => rfl
    | ⟨1, _⟩ => rfl)

/-- A vector add-reduction down the columns: the column's sum. -/
theorem multiReduction_add_col {n d : ℕ} (src : FVec Ideal ⟨2, ![n, d]⟩ φ) (acc : BitVec φ.bits)
    (h : (⟨2, ![n, d]⟩ : Shape).Reduces [0] ⟨1, ![d]⟩) (hφ : FKind.Formats φ) (hacc : acc = FKind.add.neutral φ hφ) (e : Fin d) :
    multiReduction .add [0] ⟨1, ![d]⟩ src acc h hφ hacc (ix1 e) = ∑ y : Fin n, src (ix2 y e) :=
  (Ideal.multiReduction_add_single src acc h hφ hacc (ix1 e)).trans
    (Finset.sum_congr rfl fun y _ => congrArg src (lift_col h e y))

end Cert.LibColReduce
end
-- ==== Proof.LibRowRowDot.lean ====
/-
  A contraction of two matrices along their rows' common axis: `[n, k] × [m, k] → [n, m]`, entry `(p, o)` the inner
  product of row `p` of the left operand with row `o` of the right (a product with the right operand's transpose that
  never forms the transpose). Read at an index on the extended reals: for any contraction record with those
  dimension numbers, and for a matrix unit's product into the zero accumulator.
-/
import Idealize.ShloMosaic.PureOps.Ideal.Laws
import Idealize.ShloMosaic.Lib.ValueIdx

noncomputable section

open scoped BigOperators

namespace Cert.LibRowRowDot

open Idealize.ShloMosaic Idealize.ShloMosaic.ValueIdx

/-- The sum over the contraction index is the sum over the one contracted coordinate j, the left operand read at
    (p, j) and the right at (o, j). -/
theorem sum_contr_rows {n k m : ℕ} (D : DotDims ⟨2, ![n, k]⟩ ⟨2, ![m, k]⟩ ⟨2, ![n, m]⟩)
    (hlc : D.lhsContracting = [1]) (hrc : D.rhsContracting = [1]) (hln : D.lhsNonContracting = [0]) (hrn : D.rhsNonContracting = [0])
    (hlb : D.lhsBatch = []) (hrb : D.rhsBatch = [])
    (lhs : (⟨2, ![n, k]⟩ : Shape).Idx → EReal) (rhs : (⟨2, ![m, k]⟩ : Shape).Idx → EReal) (p : Fin n) (o : Fin m) :
    ∑ q : D.contr.Idx, lhs (D.lhsIdx (ix2 p o) q) * rhs (D.rhsIdx (ix2 p o) q) = ∑ j : Fin k, lhs (ix2 p j) * rhs (ix2 o j) := by
  obtain ⟨lc, rc, ln, rn, lb, rb, wf⟩ := D
  simp only at hlc hrc hln hrn hlb hrb
  subst hlc hrc hln hrn hlb hrb
  rw [← Equiv.sum_comp (contrEquiv1 (DotDims.mk [1] [1] [0] [0] [] [] wf) k rfl rfl).symm]
  refine Finset.sum_congr rfl fun j _ => ?_
  have hk := contrEquiv1_symm_val (DotDims.mk [1] [1] [0] [0] [] [] wf) k rfl rfl j
  have el : (DotDims.mk [1] [1] [0] [0] [] [] wf).lhsIdx (ix2 p o) ((contrEquiv1 (DotDims.mk [1] [1] [0] [0] [] [] wf) k rfl rfl).symm j) = ix2 p j :=
    funext fun a => Fin.ext (by
      match a with
      | ⟨0, _⟩ => rfl
      | ⟨1, _⟩ => exact ((DotDims.mk [1] [1] [0] [0] [] [] wf).lhsIdx_val_of_single rfl _ _).trans hk)
  have er : (DotDims.mk [1] [1] [0] [0] [] [] wf).rhsIdx (ix2 p o) ((contrEquiv1 (DotDims.mk [1] [1] [0] [0] [] [] wf) k rfl rfl).symm j) = ix2 o j :=
    funext fun a => Fin.ext (by
      match a with
      | ⟨0, _⟩ => rfl
      | ⟨1, _⟩ => exact ((DotDims.mk [1] [1] [0] [0] [] [] wf).rhsIdx_val_of_single rfl _ _).trans hk)
  rw [el, er]

/-- A matrix unit's product of rows against rows into the zero accumulator, at (p, o). -/
theorem matmul_zero_rows_apply {n k m : ℕ} {φ₁ φ₂ : FTy} (D : DotDims ⟨2, ![n, k]⟩ ⟨2, ![m, k]⟩ ⟨2, ![n, m]⟩)
    (hlc : D.lhsContracting = [1]) (hrc : D.rhsContracting = [1]) (hln : D.lhsNonContracting = [0]) (hrn : D.rhsNonContracting = [0])
    (hlb : D.lhsBatch = []) (hrb : D.rhsBatch = []) (prec : Option ContractPrecision)
    (lhs : FVec Ideal ⟨2, ![n, k]⟩ φ₁) (rhs : FVec Ideal ⟨2, ![m, k]⟩ φ₂) (p : Fin n) (o : Fin m) :
    FloatOps.matmul D prec lhs rhs (constant ⟨2, ![n, m]⟩ .f32 0x00000000#32) (ix2 p o) = ∑ j : Fin k, lhs (ix2 p j) * rhs (ix2 o j) :=
  (Ideal.matmul_constant_zero_apply D prec lhs rhs (ix2 p o)).trans (sum_contr_rows D hlc hrc hln hrn hlb hrb lhs rhs p o)

end Cert.LibRowRowDot

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.TileAttention.lean ====
/-
  What the kernel's body computes on one tile, at an index, on the extended reals.

  The body holds batch b's whole key block [1, 2048, 64], a tile of 256 queries [1, 256, 64] and batch b's whole value block
  transposed [1, 64, 2048].  Its first matrix product contracts the feature axis of keys against queries (rows against
  rows), the result is scaled by 0.125, maximum-reduced and add-reduced down the key axis (the columns of the
  [2048, 256] tile), so the stored [2048, 256] tile is, at (i, o), the softmax weight of key i for the tile's query o.
  The second product contracts the key axis of the transposed values against that tile, so at (v, o) it is coordinate v of
  the blend of the values by query o's weights; the squares are add-reduced down the feature axis, and the stored
  [64, 256] tile is the blend's direction.  A change of float format is the identity on the extended reals.
-/
import proofs.«175652_j11562051961156_2_alg».proof.Proof.Gen.KernelIdeal.Skeleton
import proofs.«175652_j11562051961156_2_alg».proof.Proof.Attention
import proofs.«175652_j11562051961156_2_alg».proof.Proof.LibColumnMax
import proofs.«175652_j11562051961156_2_alg».proof.Proof.LibColReduce
import proofs.«175652_j11562051961156_2_alg».proof.Proof.LibRowRowDot
import proofs.«175652_j11562051961156_2_alg».proof.Proof.LibPlainDot
import proofs.«175652_j11562051961156_2_alg».proof.Proof.LibBiasRow
import Idealize.ShloMosaic.Lib.ValueLayout
import Idealize.ShloMosaic.Lib.ValueIdx
import Idealize.ShloMosaic.PureOps.Ideal.Laws

noncomputable section

open scoped BigOperators

namespace Cert.TileAttention

open Cert.KernelIdeal Cert.KernelIdeal.Gen Idealize.ShloMosaic Idealize.ShloMosaic.ValueIdx
open Cert.Attention

variable (P0 : Vec Ideal S1x2048x64 .f32) (P1 : Vec Ideal S1x256x64 .f32) (P2 : Vec Ideal S1x64x2048 .f32)

/-- The key block as a family of 2048 vectors of 64 features. -/
def tileKeys : Fin 2048 → Fin 64 → EReal := fun i k => P0 (ix3 (0 : Fin 1) i k)

/-- Row o of the query tile as a vector of 64 features. -/
def tileQuery (o : Fin 256) : Fin 64 → EReal := fun k => P1 (ix3 (0 : Fin 1) o k)

/-- The transposed value block as a family of 2048 vectors of 64 features. -/
def tileValues : Fin 2048 → Fin 64 → EReal := fun i v => P2 (ix3 (0 : Fin 1) v i)

/-! ## The weights tile -/

/-- The scaled scores [2048, 256]. -/
def scoresTile : FVec Ideal S2048x256 .f32 :=
  mulf (matmul dot_S2048x64_S256x64_S2048x256_1_1_0_0_n_n none
      (truncf .bf16 (shapeCast S2048x64 P0 shapeCasts_S1x2048x64_S2048x64) bitsLt_bf16_f32)
      (truncf .bf16 (shapeCast S256x64 P1 shapeCasts_S1x256x64_S256x64) bitsLt_bf16_f32)
      (constant S2048x256 .f32 0x00000000#32))
    (broadcast S2048x256 (Scalar.ofBits .f32 0x3E000000#32))

theorem scoresTile_at (i : Fin 2048) (o : Fin 256) :
    scoresTile P0 P1 (ix2 i o) = score (tileKeys P0) (tileQuery P1 o) i := by
  unfold score
  refine congrArg (· * scale) ?_
  refine (LibRowRowDot.matmul_zero_rows_apply dot_S2048x64_S256x64_S2048x256_1_1_0_0_n_n rfl rfl rfl rfl rfl rfl none
    (truncf .bf16 (shapeCast S2048x64 P0 shapeCasts_S1x2048x64_S2048x64) bitsLt_bf16_f32)
    (truncf .bf16 (shapeCast S256x64 P1 shapeCasts_S1x256x64_S256x64) bitsLt_bf16_f32) i o).trans ?_
  exact Finset.sum_congr rfl fun k _ => congrArg₂ (· * ·)
    (shapeCast_1ab_ab_apply P0 shapeCasts_S1x2048x64_S2048x64 i k) (shapeCast_1ab_ab_apply P1 shapeCasts_S1x256x64_S256x64 o k)

/-- The largest score of each query [256]. -/
def peakRow : FVec Ideal S256 .f32 :=
  multiReduction .maximumf [0] S256 (scoresTile P0 P1) 0xFF800000#32 reduces_S2048x256_S256 (.inl rfl) rfl

theorem peakRow_at (o : Fin 256) : peakRow P0 P1 (ix1 o) = peak (tileKeys P0) (tileQuery P1 o) := by
  unfold peak
  refine (LibColumnMax.multiReduction_max_col (scoresTile P0 P1) 0xFF800000#32 reduces_S2048x256_S256 (.inl rfl) rfl o).trans ?_
  exact congrArg (Finset.fold max _ · Finset.univ) (funext fun i => scoresTile_at P0 P1 i o)

/-- The raised scores [2048, 256]. -/
def raisedTile : FVec Ideal S2048x256 .f32 :=
  exp (subf (scoresTile P0 P1)
    (broadcastTo S2048x256 (shapeCast S1x256 (peakRow P0 P1) shapeCasts_S256_S1x256) broadcasts_S1x256_S2048x256))

theorem raisedTile_at (i : Fin 2048) (o : Fin 256) :
    raisedTile P0 P1 (ix2 i o) = raised (tileKeys P0) (tileQuery P1 o) i := by
  unfold raised
  exact congrArg Ideal.exp (congrArg₂ (· - ·) (scoresTile_at P0 P1 i o)
    ((LibBiasRow.vec_spread_apply shapeCasts_S256_S1x256 broadcasts_S1x256_S2048x256 (peakRow P0 P1) i o).trans (peakRow_at P0 P1 o)))

/-- The sum of each query's raised scores [256]. -/
def massRow : FVec Ideal S256 .f32 :=
  multiReduction .add [0] S256 (raisedTile P0 P1) 0x00000000#32 reduces_S2048x256_S256 (.inl rfl) rfl

theorem massRow_at (o : Fin 256) : massRow P0 P1 (ix1 o) = ∑ i : Fin 2048, raised (tileKeys P0) (tileQuery P1 o) i :=
  (LibColReduce.multiReduction_add_col (raisedTile P0 P1) 0x00000000#32 reduces_S2048x256_S256 (.inl rfl) rfl o).trans
    (Finset.sum_congr rfl fun i _ => raisedTile_at P0 P1 i o)

/-- The first payload is the raised scores over their sums. -/
theorem pay1_eq : k0_pay1 (F := Ideal) P0 P1
    = divf (raisedTile P0 P1) (broadcastTo S2048x256 (shapeCast S1x256 (massRow P0 P1) shapeCasts_S256_S1x256) broadcasts_S1x256_S2048x256) := rfl

/-- The stored weights tile at (i, o) is the softmax weight of key i for the tile's query o. -/
theorem weightsTile_at (i : Fin 2048) (o : Fin 256) :
    k0_pay1 (F := Ideal) P0 P1 (ix2 i o) = weight (tileKeys P0) (tileQuery P1 o) i := by
  rw [pay1_eq]
  unfold weight
  exact congrArg₂ Ideal.div (raisedTile_at P0 P1 i o)
    ((LibBiasRow.vec_spread_apply shapeCasts_S256_S1x256 broadcasts_S1x256_S2048x256 (massRow P0 P1) i o).trans (massRow_at P0 P1 o))

/-- The stored block [1, 2048, 256] is the weights tile with a unit axis put in front. -/
theorem storedWeights_at (u : Fin 1) (i : Fin 2048) (o : Fin 256) :
    k0_pay2 (F := Ideal) P0 P1 (ix3 u i o) = k0_pay1 (F := Ideal) P0 P1 (ix2 i o) :=
  shapeCast_ab_1ab_apply (k0_pay1 (F := Ideal) P0 P1) shapeCasts_S2048x256_S1x2048x256 u i o

/-! ## The outputs tile -/

/-- The blends [64, 256]. -/
def blendTile : FVec Ideal S64x256 .f32 :=
  matmul dot_S64x2048_S2048x256_S64x256_1_0_0_1_n_n none
    (truncf .bf16 (shapeCast S64x2048 P2 shapeCasts_S1x64x2048_S64x2048) bitsLt_bf16_f32)
    (truncf .bf16 (k0_pay1 (F := Ideal) P0 P1) bitsLt_bf16_f32) (constant S64x256 .f32 0x00000000#32)

theorem blendTile_at (v : Fin 64) (o : Fin 256) :
    blendTile P0 P1 P2 (ix2 v o) = blend (tileValues P2) (fun i : Fin 2048 => k0_pay1 (F := Ideal) P0 P1 (ix2 i o)) v := by
  unfold blend
  refine (LibPlainDot.matmul_zero_apply dot_S64x2048_S2048x256_S64x256_1_0_0_1_n_n rfl rfl rfl rfl rfl rfl none
    (truncf .bf16 (shapeCast S64x2048 P2 shapeCasts_S1x64x2048_S64x2048) bitsLt_bf16_f32)
    (truncf .bf16 (k0_pay1 (F := Ideal) P0 P1) bitsLt_bf16_f32) v o).trans ?_
  exact Finset.sum_congr rfl fun i _ => congrArg (· * k0_pay1 (F := Ideal) P0 P1 (ix2 i o))
    (shapeCast_1ab_ab_apply P2 shapeCasts_S1x64x2048_S64x2048 v i)

/-- The sum of each query's squared blend coordinates [256]. -/
def squaresRow : FVec Ideal S256 .f32 :=
  multiReduction .add [0] S256 (mulf (blendTile P0 P1 P2) (blendTile P0 P1 P2)) 0x00000000#32 reduces_S64x256_S256 (.inl rfl) rfl

theorem squaresRow_at (o : Fin 256) :
    squaresRow P0 P1 P2 (ix1 o) = ∑ v' : Fin 64, blend (tileValues P2) (fun i : Fin 2048 => k0_pay1 (F := Ideal) P0 P1 (ix2 i o)) v'
      * blend (tileValues P2) (fun i : Fin 2048 => k0_pay1 (F := Ideal) P0 P1 (ix2 i o)) v' :=
  (LibColReduce.multiReduction_add_col (mulf (blendTile P0 P1 P2) (blendTile P0 P1 P2)) 0x00000000#32 reduces_S64x256_S256 (.inl rfl) rfl o).trans
    (Finset.sum_congr rfl fun v' _ => congrArg₂ (· * ·) (blendTile_at P0 P1 P2 v' o) (blendTile_at P0 P1 P2 v' o))

/-- Each query's length plus the guard, as a row [1, 256]. -/
def lengthRow : FVec Ideal S1x256 .f32 :=
  addf (sqrt (shapeCast S1x256 (squaresRow P0 P1 P2) shapeCasts_S256_S1x256)) (broadcast S1x256 (Scalar.ofBits .f32 0x2B8CBCCC#32))

theorem lengthRow_at (o : Fin 256) :
    lengthRow P0 P1 P2 (ix2 (0 : Fin 1) o)
      = Ideal.sqrt (∑ v' : Fin 64, blend (tileValues P2) (fun i : Fin 2048 => k0_pay1 (F := Ideal) P0 P1 (ix2 i o)) v'
          * blend (tileValues P2) (fun i : Fin 2048 => k0_pay1 (F := Ideal) P0 P1 (ix2 i o)) v') + guard :=
  congrArg (Ideal.sqrt · + guard)
    ((LibBiasRow.vec_as_row_apply shapeCasts_S256_S1x256 (squaresRow P0 P1 P2) 0 o).trans (squaresRow_at P0 P1 P2 o))

/-- The second payload is the blends over their lengths, with a unit axis put in front. -/
theorem pay3_eq : k0_pay3 (F := Ideal) P0 P1 P2
    = shapeCast S1x64x256 (divf (blendTile P0 P1 P2) (broadcastTo S64x256 (lengthRow P0 P1 P2) broadcasts_S1x256_S64x256))
        shapeCasts_S64x256_S1x64x256 := rfl

/-- The stored outputs tile at (·, v, o) is coordinate v of the direction of the blend of the values by query o's weights. -/
theorem outputsTile_at (u : Fin 1) (v : Fin 64) (o : Fin 256) :
    k0_pay3 (F := Ideal) P0 P1 P2 (ix3 u v o)
      = direction (tileValues P2) (fun i : Fin 2048 => k0_pay1 (F := Ideal) P0 P1 (ix2 i o)) v := by
  rw [pay3_eq]
  refine (shapeCast_ab_1ab_apply _ shapeCasts_S64x256_S1x64x256 u v o).trans ?_
  unfold direction
  exact congrArg₂ Ideal.div (blendTile_at P0 P1 P2 v o)
    ((LibBiasRow.row_spread_apply broadcasts_S1x256_S64x256 (lengthRow P0 P1 P2) v o).trans (lengthRow_at P0 P1 P2 o))

/-! ## The tile as a piece of the whole arrays -/

variable (K : SKeys.Idx → EReal) (Q : SQueries.Idx → EReal) (V : SValues.Idx → EReal)

/-- Query o of the q-th tile of 256 queries. -/
def tileCol (q : Fin 8) (o : Fin 256) : Fin 2048 := ⟨q.val * 256 + o.val, by have := q.isLt; have := o.isLt; omega⟩

/-- When the key block is batch b's keys and the query tile is the q-th tile of batch b's queries, the stored weights tile
    is that tile of the weights array. -/
theorem tile_weights (b q : Fin 8)
    (h0 : ∀ (i : Fin 2048) (k : Fin 64), P0 (ix3 (0 : Fin 1) i k) = K (ix4 b i (0 : Fin 1) k))
    (h1 : ∀ (o : Fin 256) (k : Fin 64), P1 (ix3 (0 : Fin 1) o k) = Q (ix4 b (0 : Fin 1) (tileCol q o) k))
    (i : Fin 2048) (o : Fin 256) :
    k0_pay1 (F := Ideal) P0 P1 (ix2 i o) = weights K Q (ix3 b i (tileCol q o)) := by
  rw [weightsTile_at, weights_at]
  have ek : tileKeys P0 = keysOf K b := funext fun i => funext fun k => h0 i k
  have eq : tileQuery P1 o = queryOf Q b (tileCol q o) := funext fun k => h1 o k
  rw [ek, eq]

/-- When moreover the value block is batch b's values transposed, the stored outputs tile is that tile of the outputs
    array. -/
theorem tile_outputs (b q : Fin 8)
    (h0 : ∀ (i : Fin 2048) (k : Fin 64), P0 (ix3 (0 : Fin 1) i k) = K (ix4 b i (0 : Fin 1) k))
    (h1 : ∀ (o : Fin 256) (k : Fin 64), P1 (ix3 (0 : Fin 1) o k) = Q (ix4 b (0 : Fin 1) (tileCol q o) k))
    (h2 : ∀ (v : Fin 64) (i : Fin 2048), P2 (ix3 (0 : Fin 1) v i) = V (ix3 b i v))
    (u : Fin 1) (v : Fin 64) (o : Fin 256) :
    k0_pay3 (F := Ideal) P0 P1 P2 (ix3 u v o) = outputs K Q V (ix3 b v (tileCol q o)) := by
  rw [outputsTile_at, outputs_at]
  have ev : tileValues P2 = valuesOf V b := funext fun i => funext fun v => h2 v i
  have ew : (fun i : Fin 2048 => k0_pay1 (F := Ideal) P0 P1 (ix2 i o)) = fun i : Fin 2048 => weights K Q (ix3 b i (tileCol q o)) :=
    funext fun i => tile_weights P0 P1 K Q b q h0 h1 i o
  rw [ev, ew]

end Cert.TileAttention

end
-- ==== Proof.KernelAttention.lean ====
/-
  The kernel's two result arrays are the attention arrays.

  Before the region the host drops the unit axis of the keys and of the queries and transposes the values' last two axes.
  The grid has 8 × 8 points; point (b, q) reads batch b's whole key block, the q-th tile of 256 of batch b's queries and
  batch b's whole transposed value block, and writes back block (b, 0, q) of each result: all 2048 keys × the tile's 256
  queries of the weights, all 64 features × the tile's 256 queries of the outputs.  Each written block is that block of
  the whole attention array (the tile lemmas), and the 64 blocks tile each result array, so after the run each result
  array is the attention array.
-/
import proofs.«175652_j11562051961156_2_alg».proof.Proof.Gen.KernelIdeal.Value
import proofs.«175652_j11562051961156_2_alg».proof.Proof.TileAttention
import Idealize.ShloMosaic.Lib.Pipeline.Value
import Idealize.ShloMosaic.Lib.StableHlo.Run
import Idealize.ShloMosaic.Lib.ValueIdx
import Idealize.ShloMosaic.Lib.Tactic

noncomputable section

namespace Cert.KernelAttention

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.Attention Cert.TileAttention

variable (m : (ℓ : Loc nD τ sig) → Buf (Elt Ideal) ℓ) (ρ : Dev nD → PrngReg)

/-! ## The arrays the region finds -/

/-- The keys with their unit axis dropped. -/
theorem keys_found (c : Dev nD) : (V m c main_v0 : S8x2048x64.Idx → EReal)
    = shapeCast S8x2048x64 (m ((c : Thread nD τ).loc main_arg0) : S8x2048x1x64.Idx → EReal) shapeCasts_S8x2048x1x64_S8x2048x64 := by
  dsimp only [Gen.V, Gen.hostOps0]; after_results; rfl

/-- The queries with their unit axis dropped. -/
theorem queries_found (c : Dev nD) : (V m c main_v1 : S8x2048x64.Idx → EReal)
    = shapeCast S8x2048x64 (m ((c : Thread nD τ).loc main_arg1) : S8x1x2048x64.Idx → EReal) shapeCasts_S8x1x2048x64_S8x2048x64 := by
  dsimp only [Gen.V, Gen.hostOps0]; after_results; rfl

/-- The values with their last two axes exchanged. -/
theorem values_found (c : Dev nD) : (V m c main_v2 : S8x64x2048.Idx → EReal)
    = transpose S8x64x2048 [0, 2, 1] (m ((c : Thread nD τ).loc main_arg2) : S8x2048x64.Idx → EReal) transposes_S8x2048x64_S8x64x2048_0_2_1 := by
  dsimp only [Gen.V, Gen.hostOps0]; after_results

/-! ## The index maps over the grid -/

/-- At every point: the key and value windows follow the batch coordinate only, the query window and both result windows
    follow the batch and the tile, and both stay inside 8 × 8. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = win0_3.index t (2 : Fin 3) ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (1 : Fin 3) = 0 ∧ win0_3.index t (0 : Fin 3) < 8 ∧ win0_3.index t (2 : Fin 3) < 8
    ∧ win0_4.index t (0 : Fin 3) = win0_3.index t (0 : Fin 3) ∧ win0_4.index t (1 : Fin 3) = 0 ∧ win0_4.index t (2 : Fin 3) = win0_3.index t (2 : Fin 3) :=
  (by decide +kernel : ∀ t : Fin grid0.N, _)

/-- Every (batch, tile) pair is some point's. -/
theorem idx_onto : ∀ (q0 q2 : Fin 8), ∃ t : Fin cfg0.N, win0_3.index t = ![q0.val, 0, q2.val] :=
  (by decide +kernel : ∀ (q0 q2 : Fin 8), ∃ t : Fin grid0.N, win0_3.index t = ![q0.val, 0, q2.val])

/-! ## The input blocks at a point -/

/-- The key block at a point of batch b is batch b's keys. -/
theorem keys_block (c : Dev nD) (t : Fin cfg0.N) (b : Fin 8) (hb : b.val = win0_3.index t (0 : Fin 3)) (i : Fin 2048) (k : Fin 64) :
    (iblk m c 0 t : Vec Ideal S1x2048x64 .f32) (ix3 (0 : Fin 1) i k)
      = (m ((c : Thread nD τ).loc main_arg0) : S8x2048x1x64.Idx → EReal) (ix4 b i (0 : Fin 1) k) := by
  obtain ⟨e0, e1, e2, -⟩ := idx_facts t
  unfold iblk
  rw [View.read_apply]
  show (V m c main_v0 : S8x2048x64.Idx → EReal) (((cfg0.win 0).blk t).view.emb (ix3 (0 : Fin 1) i k)) = _
  rw [keys_found]
  refine shapeCast_apply _ shapeCasts_S8x2048x1x64_S8x2048x64 _ (ix4 b i (0 : Fin 1) k) ?_
  rw [Shape.rowMajor_val_four, Shape.rowMajor_val_three]
  show ((b.val * 2048 + i.val) * 1 + 0) * 64 + k.val
    = ((win0_0.index t (0 : Fin 3) * 1 + 1 * 0) * 2048 + (win0_0.index t (1 : Fin 3) * 2048 + 1 * i.val)) * 64
      + (win0_0.index t (2 : Fin 3) * 64 + 1 * k.val)
  omega

/-- The query block at a point of batch b and tile q is the q-th tile of batch b's queries. -/
theorem queries_block (c : Dev nD) (t : Fin cfg0.N) (b q : Fin 8) (hb : b.val = win0_3.index t (0 : Fin 3))
    (hq : q.val = win0_3.index t (2 : Fin 3)) (o : Fin 256) (k : Fin 64) :
    (iblk m c 1 t : Vec Ideal S1x256x64 .f32) (ix3 (0 : Fin 1) o k)
      = (m ((c : Thread nD τ).loc main_arg1) : S8x1x2048x64.Idx → EReal) (ix4 b (0 : Fin 1) (tileCol q o) k) := by
  obtain ⟨-, -, -, e0, e1, e2, -⟩ := idx_facts t
  unfold iblk
  rw [View.read_apply]
  show (V m c main_v1 : S8x2048x64.Idx → EReal) (((cfg0.win 1).blk t).view.emb (ix3 (0 : Fin 1) o k)) = _
  rw [queries_found]
  refine shapeCast_apply _ shapeCasts_S8x1x2048x64_S8x2048x64 _ (ix4 b (0 : Fin 1) (tileCol q o) k) ?_
  rw [Shape.rowMajor_val_four, Shape.rowMajor_val_three]
  show ((b.val * 1 + 0) * 2048 + (q.val * 256 + o.val)) * 64 + k.val
    = ((win0_1.index t (0 : Fin 3) * 1 + 1 * 0) * 2048 + (win0_1.index t (1 : Fin 3) * 256 + 1 * o.val)) * 64
      + (win0_1.index t (2 : Fin 3) * 64 + 1 * k.val)
  omega

/-- The value block at a point of batch b is batch b's values, transposed. -/
theorem values_block (c : Dev nD) (t : Fin cfg0.N) (b : Fin 8) (hb : b.val = win0_3.index t (0 : Fin 3)) (v : Fin 64) (i : Fin 2048) :
    (iblk m c 2 t : Vec Ideal S1x64x2048 .f32) (ix3 (0 : Fin 1) v i)
      = (m ((c : Thread nD τ).loc main_arg2) : S8x2048x64.Idx → EReal) (ix3 b i v) := by
  obtain ⟨-, -, -, -, -, -, e0, e1, e2, -⟩ := idx_facts t
  unfold iblk
  rw [View.read_apply]
  show (V m c main_v2 : S8x64x2048.Idx → EReal) (((cfg0.win 2).blk t).view.emb (ix3 (0 : Fin 1) v i)) = _
  rw [values_found]
  refine transpose_apply [0, 2, 1] _ transposes_S8x2048x64_S8x64x2048_0_2_1 _ (ix3 b i v) (fun a => ?_)
  match a with
  | ⟨0, _⟩ => show b.val = win0_2.index t (0 : Fin 3) * 1 + 1 * 0; omega
  | ⟨1, _⟩ => show v.val = win0_2.index t (1 : Fin 3) * 64 + 1 * v.val; omega
  | ⟨2, _⟩ => show i.val = win0_2.index t (2 : Fin 3) * 2048 + 1 * i.val; omega

/-! ## What each point writes back -/

theorem hz : (![0, 0, 0] : Fin 3 → Nat) = fun _ => 0 := funext fun a => by fin_cases a <;> rfl

/-- Point t writes back block t of the weights array. -/
theorem flushed_weights (c : Dev nD) (t : Fin cfg0.N) :
    (dats m 0 c).flushed 3 t = ((cfg0.win 3).blk t).view.read (Elt Ideal)
      (weights (m ((c : Thread nD τ).loc main_arg0)) (m ((c : Thread nD τ).loc main_arg1))) := by
  obtain ⟨-, -, -, -, -, -, -, -, -, e31, l0, l2, -⟩ := idx_facts t
  rw [Value.flushed3]
  unfold out0_3
  rw [View.canon_unit_zero hz]
  simp only [View.ld_unit_zero (S := S1x2048x64) hz, View.ld_unit_zero (S := S1x256x64) hz]
  funext y
  obtain ⟨u, i, o, rfl⟩ : ∃ (u : Fin 1) (i : Fin 2048) (o : Fin 256), y = ix3 u i o := ⟨y 0, y 1, y 2, eq_ix3 y⟩
  show k0_pay2 (F := Ideal) (iblk m c 0 t) (iblk m c 1 t) (ix3 u i o)
    = weights (m ((c : Thread nD τ).loc main_arg0)) (m ((c : Thread nD τ).loc main_arg1)) (((cfg0.win 3).blk t).view.emb (ix3 u i o))
  refine (storedWeights_at (iblk m c 0 t) (iblk m c 1 t) u i o).trans ?_
  refine (tile_weights (iblk m c 0 t) (iblk m c 1 t) (m ((c : Thread nD τ).loc main_arg0)) (m ((c : Thread nD τ).loc main_arg1))
    ⟨win0_3.index t (0 : Fin 3), l0⟩ ⟨win0_3.index t (2 : Fin 3), l2⟩
    (keys_block m c t ⟨win0_3.index t (0 : Fin 3), l0⟩ rfl) (queries_block m c t ⟨win0_3.index t (0 : Fin 3), l0⟩ ⟨win0_3.index t (2 : Fin 3), l2⟩ rfl rfl) i o).trans ?_
  refine congrArg (weights (m ((c : Thread nD τ).loc main_arg0)) (m ((c : Thread nD τ).loc main_arg1))) (funext fun a => Fin.ext ?_)
  have hu : u.val = 0 := by omega
  match a with
  | ⟨0, _⟩ => show win0_3.index t (0 : Fin 3) = win0_3.index t (0 : Fin 3) * 1 + 1 * u.val; omega
  | ⟨1, _⟩ => show i.val = win0_3.index t (1 : Fin 3) * 2048 + 1 * i.val; omega
  | ⟨2, _⟩ => show win0_3.index t (2 : Fin 3) * 256 + o.val = win0_3.index t (2 : Fin 3) * 256 + 1 * o.val; omega

/-- Point t writes back block t of the outputs array. -/
theorem flushed_outputs (c : Dev nD) (t : Fin cfg0.N) :
    (dats m 0 c).flushed 4 t = ((cfg0.win 4).blk t).view.read (Elt Ideal)
      (outputs (m ((c : Thread nD τ).loc main_arg0)) (m ((c : Thread nD τ).loc main_arg1)) (m ((c : Thread nD τ).loc main_arg2))) := by
  obtain ⟨-, -, -, -, -, -, -, -, -, -, l0, l2, e40, e41, e42⟩ := idx_facts t
  rw [Value.flushed4]
  unfold out0_4
  rw [View.canon_unit_zero hz]
  simp only [View.ld_unit_zero (S := S1x2048x64) hz, View.ld_unit_zero (S := S1x256x64) hz, View.ld_unit_zero (S := S1x64x2048) hz]
  funext y
  obtain ⟨u, v, o, rfl⟩ : ∃ (u : Fin 1) (v : Fin 64) (o : Fin 256), y = ix3 u v o := ⟨y 0, y 1, y 2, eq_ix3 y⟩
  show k0_pay3 (F := Ideal) (iblk m c 0 t) (iblk m c 1 t) (iblk m c 2 t) (ix3 u v o)
    = outputs (m ((c : Thread nD τ).loc main_arg0)) (m ((c : Thread nD τ).loc main_arg1)) (m ((c : Thread nD τ).loc main_arg2))
        (((cfg0.win 4).blk t).view.emb (ix3 u v o))
  refine (tile_outputs (iblk m c 0 t) (iblk m c 1 t) (iblk m c 2 t)
    (m ((c : Thread nD τ).loc main_arg0)) (m ((c : Thread nD τ).loc main_arg1)) (m ((c : Thread nD τ).loc main_arg2))
    ⟨win0_3.index t (0 : Fin 3), l0⟩ ⟨win0_3.index t (2 : Fin 3), l2⟩
    (keys_block m c t ⟨win0_3.index t (0 : Fin 3), l0⟩ rfl) (queries_block m c t ⟨win0_3.index t (0 : Fin 3), l0⟩ ⟨win0_3.index t (2 : Fin 3), l2⟩ rfl rfl)
    (values_block m c t ⟨win0_3.index t (0 : Fin 3), l0⟩ rfl) u v o).trans ?_
  refine congrArg (outputs (m ((c : Thread nD τ).loc main_arg0)) (m ((c : Thread nD τ).loc main_arg1)) (m ((c : Thread nD τ).loc main_arg2)))
    (funext fun a => Fin.ext ?_)
  have hu : u.val = 0 := by omega
  match a with
  | ⟨0, _⟩ => show win0_3.index t (0 : Fin 3) = win0_4.index t (0 : Fin 3) * 1 + 1 * u.val; omega
  | ⟨1, _⟩ => show v.val = win0_4.index t (1 : Fin 3) * 64 + 1 * v.val; omega
  | ⟨2, _⟩ => show win0_3.index t (2 : Fin 3) * 256 + o.val = win0_4.index t (2 : Fin 3) * 256 + 1 * o.val; omega

/-! ## The blocks tile the result arrays -/

/-- An index of the weights array is in point t's block iff each coordinate is in the block's range on its axis. -/
theorem mem_weights_block (t : Fin cfg0.N) (i : S8x2048x2048.Idx) :
    i ∈ ((cfg0.win 3).blk t).view.set ↔ ∀ a : Fin 3, win0_3.index t a * S1x2048x256.size a ≤ (i a).val
      ∧ (i a).val < win0_3.index t a * S1x2048x256.size a + S1x2048x256.size a := by
  show i ∈ ((View.whole main_v3_0).slice (win0_3.rect t)).set ↔ _
  rw [View.set_slice_whole, Rect.mem_set_unit]
  exact Iff.rfl

/-- Every index of the weights array is in the block of the point of its batch and its query's tile. -/
theorem weights_cover (i : S8x2048x2048.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, by omega⟩ ⟨(i 2).val / 256, by omega⟩
  have q0 : win0_3.index t (0 : Fin 3) = (i 0).val := congrFun ht 0
  have q1 : win0_3.index t (1 : Fin 3) = 0 := congrFun ht 1
  have q2 : win0_3.index t (2 : Fin 3) = (i 2).val / 256 := congrFun ht 2
  refine ⟨t, flush0_3 t, ?_⟩
  rw [mem_weights_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 256 ≤ (i 2).val ∧ (i 2).val < win0_3.index t (2 : Fin 3) * 256 + 256; omega

/-- An index of the outputs array is in point t's block iff each coordinate is in the block's range on its axis. -/
theorem mem_outputs_block (t : Fin cfg0.N) (i : S8x64x2048.Idx) :
    i ∈ ((cfg0.win 4).blk t).view.set ↔ ∀ a : Fin 3, win0_4.index t a * S1x64x256.size a ≤ (i a).val
      ∧ (i a).val < win0_4.index t a * S1x64x256.size a + S1x64x256.size a := by
  show i ∈ ((View.whole main_v3_1).slice (win0_4.rect t)).set ↔ _
  rw [View.set_slice_whole, Rect.mem_set_unit]
  exact Iff.rfl

/-- Every index of the outputs array is in the block of the point of its batch and its query's tile. -/
theorem outputs_cover (i : S8x64x2048.Idx) :
    ∃ t : Fin cfg0.N, (cfg0.win 4).flush t = true ∧ i ∈ ((cfg0.win 4).blk t).view.set := by
  have hi0 : (i 0).val < 8 := (i 0).isLt
  have hi1 : (i 1).val < 64 := (i 1).isLt
  have hi2 : (i 2).val < 2048 := (i 2).isLt
  obtain ⟨t, ht⟩ := idx_onto ⟨(i 0).val, by omega⟩ ⟨(i 2).val / 256, by omega⟩
  obtain ⟨-, -, -, -, -, -, -, -, -, -, -, -, e40, e41, e42⟩ := idx_facts t
  have q0 : win0_3.index t (0 : Fin 3) = (i 0).val := congrFun ht 0
  have q2 : win0_3.index t (2 : Fin 3) = (i 2).val / 256 := congrFun ht 2
  refine ⟨t, flush0_4 t, ?_⟩
  rw [mem_outputs_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 64 ≤ (i 1).val ∧ (i 1).val < win0_4.index t (1 : Fin 3) * 64 + 64; omega
  | ⟨2, _⟩ => show win0_4.index t (2 : Fin 3) * 256 ≤ (i 2).val ∧ (i 2).val < win0_4.index t (2 : Fin 3) * 256 + 256; omega

/-! ## The result arrays after the run -/

/-- The weights result array ends holding the weights array. -/
theorem final_weights (c : Dev nD) : (dats m 0 c).arrAt 3 cfg0.N
    = weights (m ((c : Thread nD τ).loc main_arg0)) (m ((c : Thread nD τ).loc main_arg1)) :=
  (dats m 0 c).arrAt_eq_of_cover 3 _ (fun t _ => flushed_weights m c t) weights_cover

/-- The outputs result array ends holding the outputs array. -/
theorem final_outputs (c : Dev nD) : (dats m 0 c).arrAt 4 cfg0.N
    = outputs (m ((c : Thread nD τ).loc main_arg0)) (m ((c : Thread nD τ).loc main_arg1)) (m ((c : Thread nD τ).loc main_arg2)) :=
  (dats m 0 c).arrAt_eq_of_cover 4 _ (fun t _ => flushed_outputs m c t) outputs_cover

/-- The kernel's run, read: the two results at the attention arrays of the arguments, the arguments unchanged. -/
theorem run : θ_run defs (onTc (τ := τ) (main (F := Ideal))) ⟨m, fun _ => 0, ρ⟩ fun r => ∀ c : Dev nD,
      r.2.mem ((c : Thread nD τ).loc main_v3_1)
        = outputs (m ((c : Thread nD τ).loc main_arg0)) (m ((c : Thread nD τ).loc main_arg1)) (m ((c : Thread nD τ).loc main_arg2))
      ∧ r.2.mem ((c : Thread nD τ).loc main_v3_0)
        = weights (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).2.1.trans (final_outputs m c), (h c).1.trans (final_weights m c), (h c).2.2⟩)
    (Value.run_blocks m ρ)

end Cert.KernelAttention

end
-- ==== Proof.ScoreScale.lean ====
/-
  The two spellings of the attention score's scale, on the extended reals.

  The kernel multiplies a score by the single-precision word of 0.125; the reference divides it by the square root of
  the word of 64.  The word of 64 denotes the real 64, whose square root is 8, and a quotient by the real 8 is the
  product with 1/8 on every extended real (both infinities included), which is what the word of 0.125 denotes.  So the
  two spellings are one function of the score, with no condition on it.
-/
import Idealize.ShloMosaic.PureOps.Ideal

noncomputable section

namespace Cert.ScoreScale

open Idealize.ShloMosaic

/-- The word of 64.0 denotes the real 64. -/
theorem ofBits_64 : Ideal.ofBits .f32 0x42800000#32 = ((64 : ℝ) : EReal) := by
  simp [Ideal.ofBits, Ideal.ieee, -EReal.coe_mul]; norm_num

/-- The word of 0.125 denotes the real 1/8. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- Dividing by the square root of 64 is multiplying by 0.125, for every extended real. -/
theorem div_sqrt_64 (x : EReal) :
    Ideal.div x (Ideal.sqrt (Ideal.ofBits .f32 0x42800000#32)) = x * Ideal.ofBits .f32 0x3E000000#32 := by
  rw [ofBits_64, sqrt_64, ofBits_eighth, Ideal.div_coe (by norm_num : (8 : ℝ) ≠ 0)]

end Cert.ScoreScale

end
-- ==== Proof.RefAttention.lean ====
/-
  The reference's two results are the attention arrays.

  Read one operation at a time (the generated read-at-an-index lemmas), at batch b: the batched product of the reshaped
  keys and queries at (b, i, o) is the inner product of key i with query o; dividing by the square root of 64 is the
  score's scale 0.125; the maximum over the keys, taken once more against −∞, is the largest score; exp of the
  difference, its sum over the keys from zero, and the quotient are the softmax weight.  The second batched product
  sums weight · value over the keys, which is the blend with the factors in the other order; the norm function's
  sum of squares from zero, square root, the guard added, the quotient and the final transpose give the direction at
  (b, v, o).
-/
import proofs.«175652_j11562051961156_2_alg».proof.Proof.Gen.ReferenceIdeal.Read
import proofs.«175652_j11562051961156_2_alg».proof.Proof.Attention
import proofs.«175652_j11562051961156_2_alg».proof.Proof.ScoreScale
import proofs.«175652_j11562051961156_2_alg».proof.Proof.LibColumnMax
import Idealize.ShloMosaic.PureOps.Ideal.Laws

noncomputable section

open scoped BigOperators

namespace Cert.RefAttention

open Cert.ReferenceIdeal Cert.ReferenceIdeal.Gen Cert.ReferenceIdeal.Read Idealize.ShloMosaic Idealize.ShloMosaic.ValueIdx
open Cert.Attention

variable (x0 : (⟨S8x2048x1x64, .f32⟩ : BufTy).Contents (Elt Ideal)) (x1 : (⟨S8x1x2048x64, .f32⟩ : BufTy).Contents (Elt Ideal))
  (x2 : (⟨S8x2048x64, .f32⟩ : BufTy).Contents (Elt Ideal))

/-- The first batched product at (b, i, o): the inner product of batch b's key i with its query o. -/
theorem products_at (b : Fin 8) (i o : Fin 2048) :
    val_main_v2 (F := Ideal) x0 x1 (ix3 b i o) = ∑ k : Fin 64, keysOf x0 b i k * queryOf x1 b o k := by
  rw [val_main_v2_apply]
  refine Finset.sum_congr rfl fun k _ => ?_
  rw [val_main_v0_apply, val_main_v1_apply]
  have hb := b.isLt; have hi := i.isLt; have ho := o.isLt; have hk := k.isLt
  have e0 : idx_main_v0 (lidx_main_v2 (ix3 b i o) k) = ix4 b i (0 : Fin 1) k := funext fun a => Fin.ext (by
    match a with
    | ⟨0, _⟩ => show ((b.val * 2048 + i.val) * 64 + k.val) / 131072 = b.val; omega
    | ⟨1, _⟩ => show ((b.val * 2048 + i.val) * 64 + k.val) / 64 % 2048 = i.val; omega
    | ⟨2, _⟩ => rfl
    | ⟨3, _⟩ => show ((b.val * 2048 + i.val) * 64 + k.val) % 64 = k.val; omega)
  have e1 : idx_main_v1 (ridx_main_v2 (ix3 b i o) k) = ix4 b (0 : Fin 1) o k := funext fun a => Fin.ext (by
    match a with
    | ⟨0, _⟩ => show ((b.val * 2048 + o.val) * 64 + k.val) / 131072 = b.val; omega
    | ⟨1, _⟩ => rfl
    | ⟨2, _⟩ => show ((b.val * 2048 + o.val) * 64 + k.val) / 64 % 2048 = o.val; omega
    | ⟨3, _⟩ => show ((b.val * 2048 + o.val) * 64 + k.val) % 64 = k.val; omega)
  rw [e0, e1]
  rfl

/-- Divided by the square root of 64 it is the scaled score. -/
theorem score_at (b : Fin 8) (i o : Fin 2048) :
    val_main_v5 (F := Ideal) x0 x1 (ix3 b i o) = score (keysOf x0 b) (queryOf x1 b o) i := by
  rw [val_main_v5_apply, products_at, val_main_v4_apply]
  unfold score
  exact ScoreScale.div_sqrt_64 _

/-- The maximum over the keys (taken once more against −∞) is the largest score. -/
theorem peak_at (b : Fin 8) (o : Fin 2048) :
    val_main_v8 (F := Ideal) x0 x1 (ix2 b o) = peak (keysOf x0 b) (queryOf x1 b o) := by
  have h6 : val_main_v6 (F := Ideal) x0 x1 (ix2 b o) = peak (keysOf x0 b) (queryOf x1 b o) := by
    unfold val_main_v6 peak
    refine (LibColumnMax.hostReduce_max_middle (val_main_v5 (F := Ideal) x0 x1) (val_main_cst_0 (F := Ideal))
      reducesTo_S8x2048x2048_S8x2048_d1 (by decide) h_S_ b o).trans ?_
    exact congrArg (Finset.fold max _ · Finset.univ) (funext fun i => score_at x0 x1 b i o)
  rw [val_main_v8_apply, h6, val_main_v7_apply]
  unfold peak
  exact LibColumnMax.max_start_fold _ _ _

/-- The exponential of the score's distance below the largest. -/
theorem raised_at (b : Fin 8) (i o : Fin 2048) :
    val_main_v12 (F := Ideal) x0 x1 (ix3 b i o) = raised (keysOf x0 b) (queryOf x1 b o) i := by
  rw [val_main_v12_apply, val_main_v11_apply, score_at, val_main_v10_apply, val_main_v9_apply]
  have e : idx_main_v9 (idx_main_v10 (ix3 b i o)) = ix2 b o := funext fun a => Fin.ext (by
    match a with
    | ⟨0, _⟩ => rfl
    | ⟨1, _⟩ => rfl)
  rw [e, peak_at]
  rfl

/-- Their sum over the keys, from zero. -/
theorem mass_at (b : Fin 8) (o : Fin 2048) :
    val_main_v13 (F := Ideal) x0 x1 (ix2 b o) = ∑ i : Fin 2048, raised (keysOf x0 b) (queryOf x1 b o) i := by
  rw [val_main_v13_apply]
  have z : (val_main_cst_2 (F := Ideal)) (Shape.Idx.first h_S_) = 0 := Ideal.ofBits_zero_f32
  rw [z, zero_add]
  refine Finset.sum_congr rfl fun i _ => ?_
  have e : idx_main_v13 (ix2 b o) i = ix3 b i o := funext fun a => Fin.ext (by
    match a with
    | ⟨0, _⟩ => rfl
    | ⟨1, _⟩ => rfl
    | ⟨2, _⟩ => rfl)
  rw [e, raised_at]

/-- The reference's weights result is the weights array. -/
theorem weights_eq : val_main_v16 (F := Ideal) x0 x1 = weights x0 x1 := by
  funext j
  obtain ⟨b, i, o, rfl⟩ : ∃ (b : Fin 8) (i o : Fin 2048), j = ix3 b i o := ⟨j 0, j 1, j 2, eq_ix3 j⟩
  rw [val_main_v16_apply, raised_at, val_main_v15_apply, val_main_v14_apply]
  have e : idx_main_v14 (idx_main_v15 (ix3 b i o)) = ix2 b o := funext fun a => Fin.ext (by
    match a with
    | ⟨0, _⟩ => rfl
    | ⟨1, _⟩ => rfl)
  rw [e, mass_at, weights_at]
  rfl

/-- The second batched product at (b, o, v): the blend of batch b's values by query o's weights (factors commuted). -/
theorem blend_at (b : Fin 8) (o : Fin 2048) (v : Fin 64) :
    val_main_v17 (F := Ideal) x0 x1 x2 (ix3 b o v) = blend (valuesOf x2 b) (fun i : Fin 2048 => weights x0 x1 (ix3 b i o)) v := by
  rw [val_main_v17_apply, weights_eq]
  unfold blend
  refine Finset.sum_congr rfl fun i _ => ?_
  have el : lidx_main_v17 (ix3 b o v) i = ix3 b i o := funext fun a => Fin.ext (by
    match a with
    | ⟨0, _⟩ => rfl
    | ⟨1, _⟩ => rfl
    | ⟨2, _⟩ => rfl)
  have er : ridx_main_v17 (ix3 b o v) i = ix3 b i v := funext fun a => Fin.ext (by
    match a with
    | ⟨0, _⟩ => rfl
    | ⟨1, _⟩ => rfl
    | ⟨2, _⟩ => rfl)
  rw [el, er]
  exact mul_comm _ _

/-- The norm function's result plus the guard at (b, o, ·): the blend's Euclidean length plus the guard. -/
theorem length_at (b : Fin 8) (o : Fin 2048) (u : Fin 1) :
    val_main_v20 (F := Ideal) x0 x1 x2 (ix3 b o u)
      = Ideal.sqrt (∑ v' : Fin 64, blend (valuesOf x2 b) (fun i : Fin 2048 => weights x0 x1 (ix3 b i o)) v'
          * blend (valuesOf x2 b) (fun i : Fin 2048 => weights x0 x1 (ix3 b i o)) v') + guard := by
  rw [val_main_v20_apply, val_main_v18_apply, val_main_call0_v2_apply, val_main_v19_apply]
  have e : idx_main_call0_v2 (ix3 b o u) = ix2 b o := funext fun a => Fin.ext (by
    match a with
    | ⟨0, _⟩ => rfl
    | ⟨1, _⟩ => rfl)
  rw [e, val_main_call0_v1_apply]
  have z : (val_main_call0_cst (F := Ideal)) (Shape.Idx.first h_S_) = 0 := Ideal.ofBits_zero_f32
  rw [z, zero_add]
  have s : ∑ k : Fin 64, (val_main_call0_v0 (F := Ideal) x0 x1 x2) (idx_main_call0_v1 (ix2 b o) k)
      = ∑ v' : Fin 64, blend (valuesOf x2 b) (fun i : Fin 2048 => weights x0 x1 (ix3 b i o)) v'
          * blend (valuesOf x2 b) (fun i : Fin 2048 => weights x0 x1 (ix3 b i o)) v' :=
    Finset.sum_congr rfl fun v' _ => by
      have e' : idx_main_call0_v1 (ix2 b o) v' = ix3 b o v' := funext fun a => Fin.ext (by
        match a with
        | ⟨0, _⟩ => rfl
        | ⟨1, _⟩ => rfl
        | ⟨2, _⟩ => rfl)
      rw [e', val_main_call0_v0_apply, blend_at]
      rfl
  rw [s]
  rfl

/-- The reference's outputs result is the outputs array. -/
theorem outputs_eq : val_main_v23 (F := Ideal) x0 x1 x2 = outputs x0 x1 x2 := by
  funext j
  obtain ⟨b, v, o, rfl⟩ : ∃ (b : Fin 8) (v : Fin 64) (o : Fin 2048), j = ix3 b v o := ⟨j 0, j 1, j 2, eq_ix3 j⟩
  rw [val_main_v23_apply]
  have e : idx_main_v23 (ix3 b v o) = ix3 b o v := funext fun a => Fin.ext (by
    match a with
    | ⟨0, _⟩ => rfl
    | ⟨1, _⟩ => rfl
    | ⟨2, _⟩ => rfl)
  rw [e, val_main_v22_apply, blend_at, val_main_v21_apply]
  have e2 : idx_main_v21 (ix3 b o v) = ix3 b o (0 : Fin 1) := funext fun a => Fin.ext (by
    match a with
    | ⟨0, _⟩ => rfl
    | ⟨1, _⟩ => rfl
    | ⟨2, _⟩ => rfl)
  rw [e2, length_at, outputs_at]
  rfl

end Cert.RefAttention

end
-- ==== Proof.lean ====
/-
  Softmax attention with unit-length outputs: a tiled kernel against its whole-array reference, on the extended reals.

  Both programs take keys [8, 2048, 1, 64], queries [8, 1, 2048, 64] and values [8, 2048, 64] and return, per batch b, the
  softmax weights of every key i for every query o — exp (score − the largest score over the keys) over the sum of those
  exponentials, the score being the inner product of key and query times 1/sqrt 64 — and, for every query, the weighted
  sum of the value vectors divided by (its Euclidean length + 1e-12), laid out [8, 64, 2048].
  The kernel computes them tile by tile (all keys of one batch against 256 queries at a time, 8 × 8 grid points), with its
  matrix products taken on operands rounded to a narrower format — the identity on the extended reals — and the scale
  spelt as the factor 0.125.  The reference computes them on whole arrays, the scale spelt as a division by sqrt 64.
  On the extended reals the two are one function of the arguments (Proof/Attention.lean): the reference read operation by
  operation is that function (Proof/RefAttention.lean), each block the kernel writes back is that block of it and the
  blocks tile the result arrays (Proof/TileAttention.lean, Proof/KernelAttention.lean).  The laws used are exact on every
  extended real — commutativity of the product inside the second contraction, division by the real 8 as the product
  with 1/8, a maximum taken once more against its own start value — so the inputs' finiteness is not needed.
  The kernel's idealization rewrote no operation, so that it preserves the kernel is trivially true; the three programs'
  runs terminate without fault and leave the arguments unchanged by their generated frame and run theorems.
-/
import proofs.«175652_j11562051961156_2_alg».proof.Defs
import proofs.«175652_j11562051961156_2_alg».proof.Proof.Gen.Kernel
import proofs.«175652_j11562051961156_2_alg».proof.Proof.Gen.Kernel.Frame
import proofs.«175652_j11562051961156_2_alg».proof.Proof.Gen.KernelIdeal
import proofs.«175652_j11562051961156_2_alg».proof.Proof.Gen.KernelIdeal.Frame
import proofs.«175652_j11562051961156_2_alg».proof.Proof.Gen.KernelIdeal.Value
import proofs.«175652_j11562051961156_2_alg».proof.Proof.Gen.ReferenceIdeal
import proofs.«175652_j11562051961156_2_alg».proof.Proof.Gen.ReferenceIdeal.Run
import proofs.«175652_j11562051961156_2_alg».proof.Proof.Gen.ReferenceIdeal.Read
import proofs.«175652_j11562051961156_2_alg».proof.Proof.Gen.Pre_finite_inputs
import proofs.«175652_j11562051961156_2_alg».proof.Proof.KernelAttention
import proofs.«175652_j11562051961156_2_alg».proof.Proof.RefAttention
import Idealize.ShloMosaic.Adequacy
import Idealize.ShloMosaic.Init

noncomputable section

namespace Cert.Proof

open Idealize.ShloMosaic Idealize.ShloMosaic.TcCoe Idealize.SL.Sem
open Cert.Attention

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments both programs end with the outputs array and the weights array of those
    arguments. -/
theorem algebraic : Cert.algebraic_KernelIdeal_ReferenceIdeal := by
  intro m ρ m' ρ' _ hagree
  refine ⟨fun c => outputs (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    fun c => weights (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelAttention.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v23_eq, Cert.RefAttention.outputs_eq, (hagree c).1, (hagree c).2.1, (hagree c).2.2]
  · refine (Cert.ReferenceIdeal.Read.val_main_v16_eq (F := Ideal) _ _).trans ?_
    rw [Cert.RefAttention.weights_eq, (hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
